-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x31x64x4096 : Shape := ⟨4, ![32, 31, 64, 4096]⟩
abbrev S_ : Shape := ⟨0, ![]⟩

class Facts : Prop where
  bcast_S_S32x31x64x4096 : S_.BroadcastsInDim S32x31x64x4096 (![] : Fin 0 → Fin S32x31x64x4096.rank)
  reducesTo_S32x31x64x4096_S_d0_1_2_3 : S32x31x64x4096.ReducesTo [0, 1, 2, 3] S_
  h_S_ : 0 < S_.numel

variable [Facts]

def fn {F : FTy → Type} [FloatOps F] (main_arg0 : FVec F S32x31x64x4096 .f32) : IVec S_ 1 :=
  let main_v0 : FVec F S32x31x64x4096 .f32 := Host.absf main_arg0
  let main_cst : FVec F S_ .f32 := constant S_ .f32 0x7F800000#32
  let main_v1 : FVec F S32x31x64x4096 .f32 := broadcastInDim S32x31x64x4096 ![] bcast_S_S32x31x64x4096 main_cst
  let main_v2 : IVec S32x31x64x4096 1 := cmpf .olt main_v0 main_v1
  let main_c : IVec S_ 1 := constantI S_ 1 1#1
  let main_v3 : IVec S_ 1 := (fun x v => Host.reduce IntOp.andi x v reducesTo_S32x31x64x4096_S_d0_1_2_3 h_S_) main_v2 main_c
  main_v3
-- ==== Kernel.lean ====
abbrev S32x31x64x4096 : Shape := ⟨4, ![32, 31, 64, 4096]⟩
abbrev S32x16x64x4096 : Shape := ⟨4, ![32, 16, 64, 4096]⟩
abbrev S8x31x64x128 : Shape := ⟨4, ![8, 31, 64, 128]⟩
abbrev S8x16x64x128 : Shape := ⟨4, ![8, 16, 64, 128]⟩
abbrev S8x1x64x128 : Shape := ⟨4, ![8, 1, 64, 128]⟩
abbrev S8x64x128 : Shape := ⟨3, ![8, 64, 128]⟩

abbrev nBuf : Space → Nat
  | .hbm => 2
  | .vmem => 4
  | .smem => 0
  | _ => 0

abbrev bufTy : (tb : Table) → Fin (tcTables nBuf tb) → BufTy
  | .hbm, ⟨0, _⟩ => ⟨S32x31x64x4096, .f32⟩
  | .hbm, ⟨1, _⟩ => ⟨S32x16x64x4096, .f32⟩
  | .local _ .vmem, ⟨0, _⟩ => ⟨S8x31x64x128, .f32⟩
  | .local _ .vmem, ⟨1, _⟩ => ⟨S8x31x64x128, .f32⟩
  | .local _ .vmem, ⟨2, _⟩ => ⟨S8x16x64x128, .f32⟩
  | .local _ .vmem, ⟨3, _⟩ => ⟨S8x16x64x128, .f32⟩
  | _, _ => ⟨S32x31x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S8x31x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x31x64x128_S8x1x64x128_0_0_0_0 : ∀ a, (![0, 0, 0, 0] : Fin 4 → Nat) a + S8x1x64x128.size a ≤ S8x31x64x128.size a
  h_S8x1x64x128 : 0 < S8x1x64x128.numel
  shapeCasts_S8x1x64x128_S8x64x128 : S8x1x64x128.ShapeCasts S8x64x128
  inb_S8x16x64x128_S8x1x64x128_0_0_0_0 : ∀ a, (![0, 0, 0, 0] : Fin 4 → Nat) a + S8x1x64x128.size a ≤ S8x16x64x128.size a
  shapeCasts_S8x64x128_S8x1x64x128 : S8x64x128.ShapeCasts S8x1x64x128
  inb_S8x31x64x128_S8x1x64x128_0_1_0_0 : ∀ a, (![0, 1, 0, 0] : Fin 4 → Nat) a + S8x1x64x128.size a ≤ S8x31x64x128.size a
  inb_S8x31x64x128_S8x1x64x128_0_2_0_0 : ∀ a, (![0, 2, 0, 0] : Fin 4 → Nat) a + S8x1x64x128.size a ≤ S8x31x64x128.size a
  inb_S8x16x64x128_S8x1x64x128_0_1_0_0 : ∀ a, (![0, 1, 0, 0] : Fin 4 → Nat) a + S8x1x64x128.size a ≤ S8x16x64x128.size a
  inb_S8x31x64x128_S8x1x64x128_0_3_0_0 : ∀ a, (![0, 3, 0, 0] : Fin 4 → Nat) a + S8x1x64x128.size a ≤ S8x31x64x128.size a
  inb_S8x31x64x128_S8x1x64x128_0_4_0_0 : ∀ a, (![0, 4, 0, 0] : Fin 4 → Nat) a + S8x1x64x128.size a ≤ S8x31x64x128.size a
  inb_S8x16x64x128_S8x1x64x128_0_2_0_0 : ∀ a, (![0, 2, 0, 0] : Fin 4 → Nat) a + S8x1x64x128.size a ≤ S8x16x64x128.size a
  inb_S8x31x64x128_S8x1x64x128_0_5_0_0 : ∀ a, (![0, 5, 0, 0] : Fin 4 → Nat) a + S8x1x64x128.size a ≤ S8x31x64x128.size a
  inb_S8x31x64x128_S8x1x64x128_0_6_0_0 : ∀ a, (![0, 6, 0, 0] : Fin 4 → Nat) a + S8x1x64x128.size a ≤ S8x31x64x128.size a
  inb_S8x16x64x128_S8x1x64x128_0_3_0_0 : ∀ a, (![0, 3, 0, 0] : Fin 4 → Nat) a + S8x1x64x128.size a ≤ S8x16x64x128.size a
  inb_S8x31x64x128_S8x1x64x128_0_7_0_0 : ∀ a, (![0, 7, 0, 0] : Fin 4 → Nat) a + S8x1x64x128.size a ≤ S8x31x64x128.size a
  inb_S8x31x64x128_S8x1x64x128_0_8_0_0 : ∀ a, (![0, 8, 0, 0] : Fin 4 → Nat) a + S8x1x64x128.size a ≤ S8x31x64x128.size a
  inb_S8x16x64x128_S8x1x64x128_0_4_0_0 : ∀ a, (![0, 4, 0, 0] : Fin 4 → Nat) a + S8x1x64x128.size a ≤ S8x16x64x128.size a
  inb_S8x31x64x128_S8x1x64x128_0_9_0_0 : ∀ a, (![0, 9, 0, 0] : Fin 4 → Nat) a + S8x1x64x128.size a ≤ S8x31x64x128.size a
  inb_S8x31x64x128_S8x1x64x128_0_10_0_0 : ∀ a, (![0, 10, 0, 0] : Fin 4 → Nat) a + S8x1x64x128.size a ≤ S8x31x64x128.size a
  inb_S8x16x64x128_S8x1x64x128_0_5_0_0 : ∀ a, (![0, 5, 0, 0] : Fin 4 → Nat) a + S8x1x64x128.size a ≤ S8x16x64x128.size a
  inb_S8x31x64x128_S8x1x64x128_0_11_0_0 : ∀ a, (![0, 11, 0, 0] : Fin 4 → Nat) a + S8x1x64x128.size a ≤ S8x31x64x128.size a
  inb_S8x31x64x128_S8x1x64x128_0_12_0_0 : ∀ a, (![0, 12, 0, 0] : Fin 4 → Nat) a + S8x1x64x128.size a ≤ S8x31x64x128.size a
  inb_S8x16x64x128_S8x1x64x128_0_6_0_0 : ∀ a, (![0, 6, 0, 0] : Fin 4 → Nat) a + S8x1x64x128.size a ≤ S8x16x64x128.size a
  inb_S8x31x64x128_S8x1x64x128_0_13_0_0 : ∀ a, (![0, 13, 0, 0] : Fin 4 → Nat) a + S8x1x64x128.size a ≤ S8x31x64x128.size a
  inb_S8x31x64x128_S8x1x64x128_0_14_0_0 : ∀ a, (![0, 14, 0, 0] : Fin 4 → Nat) a + S8x1x64x128.size a ≤ S8x31x64x128.size a
  inb_S8x16x64x128_S8x1x64x128_0_7_0_0 : ∀ a, (![0, 7, 0, 0] : Fin 4 → Nat) a + S8x1x64x128.size a ≤ S8x16x64x128.size a
  inb_S8x31x64x128_S8x1x64x128_0_15_0_0 : ∀ a, (![0, 15, 0, 0] : Fin 4 → Nat) a + S8x1x64x128.size a ≤ S8x31x64x128.size a
  inb_S8x31x64x128_S8x1x64x128_0_16_0_0 : ∀ a, (![0, 16, 0, 0] : Fin 4 → Nat) a + S8x1x64x128.size a ≤ S8x31x64x128.size a
  inb_S8x16x64x128_S8x1x64x128_0_8_0_0 : ∀ a, (![0, 8, 0, 0] : Fin 4 → Nat) a + S8x1x64x128.size a ≤ S8x16x64x128.size a
  inb_S8x31x64x128_S8x1x64x128_0_17_0_0 : ∀ a, (![0, 17, 0, 0] : Fin 4 → Nat) a + S8x1x64x128.size a ≤ S8x31x64x128.size a
  inb_S8x31x64x128_S8x1x64x128_0_18_0_0 : ∀ a, (![0, 18, 0, 0] : Fin 4 → Nat) a + S8x1x64x128.size a ≤ S8x31x64x128.size a
  inb_S8x16x64x128_S8x1x64x128_0_9_0_0 : ∀ a, (![0, 9, 0, 0] : Fin 4 → Nat) a + S8x1x64x128.size a ≤ S8x16x64x128.size a
  inb_S8x31x64x128_S8x1x64x128_0_19_0_0 : ∀ a, (![0, 19, 0, 0] : Fin 4 → Nat) a + S8x1x64x128.size a ≤ S8x31x64x128.size a
  inb_S8x31x64x128_S8x1x64x128_0_20_0_0 : ∀ a, (![0, 20, 0, 0] : Fin 4 → Nat) a + S8x1x64x128.size a ≤ S8x31x64x128.size a
  inb_S8x16x64x128_S8x1x64x128_0_10_0_0 : ∀ a, (![0, 10, 0, 0] : Fin 4 → Nat) a + S8x1x64x128.size a ≤ S8x16x64x128.size a
  inb_S8x31x64x128_S8x1x64x128_0_21_0_0 : ∀ a, (![0, 21, 0, 0] : Fin 4 → Nat) a + S8x1x64x128.size a ≤ S8x31x64x128.size a
  inb_S8x31x64x128_S8x1x64x128_0_22_0_0 : ∀ a, (![0, 22, 0, 0] : Fin 4 → Nat) a + S8x1x64x128.size a ≤ S8x31x64x128.size a
  inb_S8x16x64x128_S8x1x64x128_0_11_0_0 : ∀ a, (![0, 11, 0, 0] : Fin 4 → Nat) a + S8x1x64x128.size a ≤ S8x16x64x128.size a
  inb_S8x31x64x128_S8x1x64x128_0_23_0_0 : ∀ a, (![0, 23, 0, 0] : Fin 4 → Nat) a + S8x1x64x128.size a ≤ S8x31x64x128.size a
  inb_S8x31x64x128_S8x1x64x128_0_24_0_0 : ∀ a, (![0, 24, 0, 0] : Fin 4 → Nat) a + S8x1x64x128.size a ≤ S8x31x64x128.size a
  inb_S8x16x64x128_S8x1x64x128_0_12_0_0 : ∀ a, (![0, 12, 0, 0] : Fin 4 → Nat) a + S8x1x64x128.size a ≤ S8x16x64x128.size a
  inb_S8x31x64x128_S8x1x64x128_0_25_0_0 : ∀ a, (![0, 25, 0, 0] : Fin 4 → Nat) a + S8x1x64x128.size a ≤ S8x31x64x128.size a
  inb_S8x31x64x128_S8x1x64x128_0_26_0_0 : ∀ a, (![0, 26, 0, 0] : Fin 4 → Nat) a + S8x1x64x128.size a ≤ S8x31x64x128.size a
  inb_S8x16x64x128_S8x1x64x128_0_13_0_0 : ∀ a, (![0, 13, 0, 0] : Fin 4 → Nat) a + S8x1x64x128.size a ≤ S8x16x64x128.size a
  inb_S8x31x64x128_S8x1x64x128_0_27_0_0 : ∀ a, (![0, 27, 0, 0] : Fin 4 → Nat) a + S8x1x64x128.size a ≤ S8x31x64x128.size a
  inb_S8x31x64x128_S8x1x64x128_0_28_0_0 : ∀ a, (![0, 28, 0, 0] : Fin 4 → Nat) a + S8x1x64x128.size a ≤ S8x31x64x128.size a
  inb_S8x16x64x128_S8x1x64x128_0_14_0_0 : ∀ a, (![0, 14, 0, 0] : Fin 4 → Nat) a + S8x1x64x128.size a ≤ S8x16x64x128.size a
  inb_S8x31x64x128_S8x1x64x128_0_29_0_0 : ∀ a, (![0, 29, 0, 0] : Fin 4 → Nat) a + S8x1x64x128.size a ≤ S8x31x64x128.size a
  inb_S8x31x64x128_S8x1x64x128_0_30_0_0 : ∀ a, (![0, 30, 0, 0] : Fin 4 → Nat) a + S8x1x64x128.size a ≤ S8x31x64x128.size a
  inb_S8x16x64x128_S8x1x64x128_0_15_0_0 : ∀ a, (![0, 15, 0, 0] : Fin 4 → Nat) a + S8x1x64x128.size a ≤ S8x16x64x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x31x64x128.size a ≤ S32x31x64x4096.size a
  hwx0_0 : ∀ i : grid0.Coords, EltTy.bits .f32 = 32 ∨ (Rect.block (s := S32x31x64x4096) S8x31x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x64x128.size a ≤ S32x16x64x4096.size a
  hwx0_1 : ∀ i : grid0.Coords, EltTy.bits .f32 = 32 ∨ (Rect.block (s := S32x16x64x4096) S8x16x64x128.size (cc0_transform_1 i) (hinb0_1 i)).WholeWords (EltTy.packing .f32)

variable [Facts₀]

abbrev win0_0 : Pipeline.Window sig grid0 :=
  Pipeline.Window.ofSpec (Memref.whole main_arg0) S8x31x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x16x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x31x64x4096 : Shape := ⟨4, ![32, 31, 64, 4096]⟩
abbrev S16 : Shape := ⟨1, ![16]⟩
abbrev S_ : Shape := ⟨0, ![]⟩
abbrev S16x1 : Shape := ⟨2, ![16, 1]⟩
abbrev S32x16x64x4096 : Shape := ⟨4, ![32, 16, 64, 4096]⟩

abbrev nBuf : Space → Nat
  | .hbm => 21
  | .vmem => 0
  | .smem => 0
  | _ => 0

abbrev bufTy : (tb : Table) → Fin (tcTables nBuf tb) → BufTy
  | .hbm, ⟨0, _⟩ => ⟨S32x31x64x4096, .f32⟩
  | .hbm, ⟨1, _⟩ => ⟨S16, .i32⟩
  | .hbm, ⟨2, _⟩ => ⟨S16, .i1⟩
  | .hbm, ⟨3, _⟩ => ⟨S16, .i32⟩
  | .hbm, ⟨4, _⟩ => ⟨S16, .i1⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S16, .i32⟩
  | .hbm, ⟨9, _⟩ => ⟨S16x1, .i32⟩
  | .hbm, ⟨10, _⟩ => ⟨S32x16x64x4096, .f32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S16x1, .i32⟩
  | .hbm, ⟨16, _⟩ => ⟨S32x16x64x4096, .f32⟩
  | .hbm, ⟨17, _⟩ => ⟨S32x16x64x4096, .f32⟩
  | .hbm, ⟨18, _⟩ => ⟨S_, .f32⟩
  | .hbm, ⟨19, _⟩ => ⟨S32x16x64x4096, .f32⟩
  | .hbm, ⟨20, _⟩ => ⟨S32x16x64x4096, .f32⟩
  | _, _ => ⟨S32x31x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S32x16x64x4096 : S_.BroadcastsInDim S32x16x64x4096 (![] : Fin 0 → Fin S32x16x64x4096.rank)
  gather_S32x31x64x4096_S16x1_S32x16x64x4096_023_1_n_n_1_1_321644096_wf : GatherDims.WF S32x31x64x4096 S16x1 S32x16x64x4096 [0, 2, 3] [1] [] [1] [] 1 ![32, 1, 64, 4096]

variable [Facts₀]

def gather_S32x31x64x4096_S16x1_S32x16x64x4096_023_1_n_n_1_1_321644096 : GatherDims S32x31x64x4096 S16x1 S32x16x64x4096 where
  offsetDims := [0, 2, 3]
  collapsedSliceDims := [1]
  operandBatchingDims := []
  startIndicesBatchingDims := []
  startIndexMap := [1]
  indexVectorDim := 1
  sliceSizes := ![32, 1, 64, 4096]
  wf := gather_S32x31x64x4096_S16x1_S32x16x64x4096_023_1_n_n_1_1_321644096_wf

class Facts : Prop extends Facts₀ where

variable [Facts]
-- ==== Proof.PoolSpec.lean ====
/-
  Skeletal pooling, as one function.

  Thirty-one joints are pooled to sixteen: pooled joint 0 is the root alone (read twice), and pooled joint
  p ≥ 1 averages joints 2p − 1 and 2p.  For a table x indexed by (batch, joint, channel, frame),
      pooled x (b, p, c, t) = (x (b, first p, c, t) + x (b, second p, c, t)) · ½ ,
  where ½ is the value of the binary32 word 0x3F000000.  The extents of the batch, channel and frame axes are
  parameters, so that the same function describes one block of the table and the whole table.

  The sum and the product are the extended reals' own; no law of arithmetic is needed, because the kernel and
  the reference compute this same expression.
-/
import Idealize.ShloMosaic.PureOps.Ideal
import Idealize.ShloMosaic.Lib.ValueIdx

noncomputable section

namespace Cert.Pool

open Idealize.ShloMosaic Idealize.ShloMosaic.ValueIdx

/-- The first joint that pooled joint `p` reads: the root for `p = 0`, joint `2p − 1` otherwise
    (truncated subtraction gives `0` at `p = 0`). -/
def first (p : Fin 16) : Fin 31 := ⟨2 * p.val - 1, by omega⟩

/-- The second joint that pooled joint `p` reads: joint `2p` (the root again for `p = 0`). -/
def second (p : Fin 16) : Fin 31 := ⟨2 * p.val, by omega⟩

/-- One half, as the extended real the binary32 word `0x3F000000` denotes. -/
def half : EReal := Ideal.ofBits .f32 0x3F000000#32

/-- The pooled table at explicit coordinates. -/
def pooledAt {n0 n2 n3 : Nat} (x : FVec Ideal ⟨4, ![n0, 31, n2, n3]⟩ .f32)
    (b : Fin n0) (p : Fin 16) (c : Fin n2) (t : Fin n3) : EReal :=
  (x (ix4 b (first p) c t) + x (ix4 b (second p) c t)) * half

/-- The pooled table, index by index. -/
def pooled {n0 n2 n3 : Nat} (x : FVec Ideal ⟨4, ![n0, 31, n2, n3]⟩ .f32) : FVec Ideal ⟨4, ![n0, 16, n2, n3]⟩ .f32 :=
  fun i => pooledAt x (i 0) (i 1) (i 2) (i 3)

theorem pooled_ix4 {n0 n2 n3 : Nat} (x : FVec Ideal ⟨4, ![n0, 31, n2, n3]⟩ .f32)
    (b : Fin n0) (p : Fin 16) (c : Fin n2) (t : Fin n3) :
    pooled x (ix4 b p c t) = (x (ix4 b (first p) c t) + x (ix4 b (second p) c t)) * half := rfl

end Cert.Pool

end
-- ==== Proof.KernelBlock.lean ====
/-
  What the kernel body leaves in one output block.

  At a grid point the body holds a block of the table, of shape [8, 31, 64, 128] (eight batches, all thirty-one
  joints, all channels, 128 frames), and fills the output block [8, 16, 64, 128] by sixteen stores, one per pooled
  joint p: it loads the two joint slabs [8, 1, 64, 128] at joints `first p` and `second p`, drops the unit axis,
  adds them, multiplies by the splat of one half, restores the unit axis, and stores the slab at joint p.

  A slab with its unit axis dropped and restored is read at the same (batch, channel, frame), so each stored slab
  at (q, ·, c, l) is (a + b) · ½ of the two loaded slabs there; each store therefore writes exactly the pooled
  block's values on its own rectangle.  The sixteen rectangles tile the output block, so the block after the body
  is the pooled block of the input block, whatever the order of the stores.
-/
import proofs.«149414_j17798344475160_1_alg».proof.Proof.Gen.KernelIdeal.Frame
import proofs.«149414_j17798344475160_1_alg».proof.Proof.PoolSpec
import Idealize.ShloMosaic.Lib.Pipeline.Value
import Idealize.ShloMosaic.Lib.ValueIdx

set_option maxRecDepth 16384

noncomputable section

namespace Cert.KernelIdeal.Pooling

open Cert.KernelIdeal Cert.KernelIdeal.Gen Idealize.ShloMosaic Idealize.ShloMosaic.ValueIdx

/-- One store's payload: two loaded joint slabs, the unit axis dropped, added, halved, the unit axis restored. -/
def slabAvg (a b : Vec Ideal S8x1x64x128 .f32) : FVec Ideal S8x1x64x128 .f32 :=
  shapeCast S8x1x64x128
    (mulf (addf (shapeCast S8x64x128 a shapeCasts_S8x1x64x128_S8x64x128) (shapeCast S8x64x128 b shapeCasts_S8x1x64x128_S8x64x128))
      (broadcast S8x64x128 (Scalar.ofBits .f32 0x3F000000#32)))
    shapeCasts_S8x64x128_S8x1x64x128

/-- Dropping the unit joint axis keeps the row-major position: (q, ·, c, l) of [8, 1, 64, 128] is (q, c, l) of
    [8, 64, 128]. -/
theorem position_eq (q : Fin 8) (u : Fin 1) (c : Fin 64) (l : Fin 128) :
    (S8x1x64x128.rowMajor (ix4 q u c l)).val = (S8x64x128.rowMajor (ix3 q c l)).val := by
  rw [Shape.rowMajor_val_four, Shape.rowMajor_val_three]
  show ((q.val * 1 + u.val) * 64 + c.val) * 128 + l.val = (q.val * 64 + c.val) * 128 + l.val
  have hu : u.val < 1 := u.isLt
  omega

/-- The payload read at (q, ·, c, l): the sum of the two slabs there, times one half. -/
theorem slabAvg_apply (a b : Vec Ideal S8x1x64x128 .f32) (q : Fin 8) (u : Fin 1) (c : Fin 64) (l : Fin 128) :
    slabAvg a b (ix4 q u c l) = (a (ix4 q u c l) + b (ix4 q u c l)) * Cert.Pool.half := by
  have ea : shapeCast S8x64x128 a shapeCasts_S8x1x64x128_S8x64x128 (ix3 q c l) = a (ix4 q u c l) :=
    shapeCast_apply a shapeCasts_S8x1x64x128_S8x64x128 (ix3 q c l) (ix4 q u c l) (position_eq q u c l)
  have eb : shapeCast S8x64x128 b shapeCasts_S8x1x64x128_S8x64x128 (ix3 q c l) = b (ix4 q u c l) :=
    shapeCast_apply b shapeCasts_S8x1x64x128_S8x64x128 (ix3 q c l) (ix4 q u c l) (position_eq q u c l)
  unfold slabAvg
  refine (shapeCast_apply _ shapeCasts_S8x64x128_S8x1x64x128 (ix4 q u c l) (ix3 q c l) (position_eq q u c l).symm).trans ?_
  show (shapeCast S8x64x128 a shapeCasts_S8x1x64x128_S8x64x128 (ix3 q c l)
      + shapeCast S8x64x128 b shapeCasts_S8x1x64x128_S8x64x128 (ix3 q c l)) * Cert.Pool.half = _
  rw [ea, eb]

/-- THE STORE OF POOLED JOINT `p`: the payload of the slabs loaded at joints `first p` and `second p` is the pooled
    block of the input block on the store's rectangle (joint p, everything else whole). -/
theorem piece_eq (x0 : Vec Ideal S8x31x64x128 .f32) (p : Fin 16)
    (inbO : ∀ a, (![0, p.val, 0, 0] : Fin 4 → Nat) a + S8x1x64x128.size a ≤ S8x16x64x128.size a)
    (inbA : ∀ a, (![0, (Cert.Pool.first p).val, 0, 0] : Fin 4 → Nat) a + S8x1x64x128.size a ≤ S8x31x64x128.size a)
    (inbB : ∀ a, (![0, (Cert.Pool.second p).val, 0, 0] : Fin 4 → Nat) a + S8x1x64x128.size a ≤ S8x31x64x128.size a)
    (y : S8x1x64x128.Idx) :
    slabAvg (View.ld x0 (Rect.unit (s := S8x31x64x128) ![0, (Cert.Pool.first p).val, 0, 0] S8x1x64x128.size inbA))
        (View.ld x0 (Rect.unit (s := S8x31x64x128) ![0, (Cert.Pool.second p).val, 0, 0] S8x1x64x128.size inbB)) y
      = Cert.Pool.pooled x0 ((Rect.unit (s := S8x16x64x128) ![0, p.val, 0, 0] S8x1x64x128.size inbO).emb y) := by
  obtain ⟨q, u, c, l, rfl⟩ : ∃ (q : Fin 8) (u : Fin 1) (c : Fin 64) (l : Fin 128), y = ix4 q u c l :=
    ⟨y 0, y 1, y 2, y 3, eq_ix4 y⟩
  have hu : u.val < 1 := u.isLt
  rw [slabAvg_apply]
  have ei : (Rect.unit (s := S8x16x64x128) ![0, p.val, 0, 0] S8x1x64x128.size inbO).emb (ix4 q u c l) = ix4 q p c l := by
    funext a; refine Fin.ext ?_
    match a with
    | ⟨0, _⟩ => show 0 + 1 * q.val = q.val; omega
    | ⟨1, _⟩ => show p.val + 1 * u.val = p.val; omega
    | ⟨2, _⟩ => show 0 + 1 * c.val = c.val; omega
    | ⟨3, _⟩ => show 0 + 1 * l.val = l.val; omega
  have ea : View.ld x0 (Rect.unit (s := S8x31x64x128) ![0, (Cert.Pool.first p).val, 0, 0] S8x1x64x128.size inbA) (ix4 q u c l)
      = x0 (ix4 q (Cert.Pool.first p) c l) := by
    show x0 _ = x0 _
    congr 1; funext a; refine Fin.ext ?_
    match a with
    | ⟨0, _⟩ => show 0 + 1 * q.val = q.val; omega
    | ⟨1, _⟩ => show (Cert.Pool.first p).val + 1 * u.val = (Cert.Pool.first p).val; omega
    | ⟨2, _⟩ => show 0 + 1 * c.val = c.val; omega
    | ⟨3, _⟩ => show 0 + 1 * l.val = l.val; omega
  have eb : View.ld x0 (Rect.unit (s := S8x31x64x128) ![0, (Cert.Pool.second p).val, 0, 0] S8x1x64x128.size inbB) (ix4 q u c l)
      = x0 (ix4 q (Cert.Pool.second p) c l) := by
    show x0 _ = x0 _
    congr 1; funext a; refine Fin.ext ?_
    match a with
    | ⟨0, _⟩ => show 0 + 1 * q.val = q.val; omega
    | ⟨1, _⟩ => show (Cert.Pool.second p).val + 1 * u.val = (Cert.Pool.second p).val; omega
    | ⟨2, _⟩ => show 0 + 1 * c.val = c.val; omega
    | ⟨3, _⟩ => show 0 + 1 * l.val = l.val; omega
  rw [ei, Cert.Pool.pooled_ix4, ea, eb]

/-- The body's sixteen stores, last first, each with its payload written as `slabAvg` of the two slabs it loads:
    pooled joint p stores the average of joints `first p` and `second p`. -/
theorem out_pieces (x0 : Vec Ideal S8x31x64x128 .f32) :
    out0_1 x0 = View.canon [⟨r0_46, slabAvg (View.ld x0 r0_44) (View.ld x0 r0_45)⟩,
      ⟨r0_43, slabAvg (View.ld x0 r0_41) (View.ld x0 r0_42)⟩,
      ⟨r0_40, slabAvg (View.ld x0 r0_38) (View.ld x0 r0_39)⟩,
      ⟨r0_37, slabAvg (View.ld x0 r0_35) (View.ld x0 r0_36)⟩,
      ⟨r0_34, slabAvg (View.ld x0 r0_32) (View.ld x0 r0_33)⟩,
      ⟨r0_31, slabAvg (View.ld x0 r0_29) (View.ld x0 r0_30)⟩,
      ⟨r0_28, slabAvg (View.ld x0 r0_26) (View.ld x0 r0_27)⟩,
      ⟨r0_25, slabAvg (View.ld x0 r0_23) (View.ld x0 r0_24)⟩,
      ⟨r0_22, slabAvg (View.ld x0 r0_20) (View.ld x0 r0_21)⟩,
      ⟨r0_19, slabAvg (View.ld x0 r0_17) (View.ld x0 r0_18)⟩,
      ⟨r0_16, slabAvg (View.ld x0 r0_14) (View.ld x0 r0_15)⟩,
      ⟨r0_13, slabAvg (View.ld x0 r0_11) (View.ld x0 r0_12)⟩,
      ⟨r0_10, slabAvg (View.ld x0 r0_8) (View.ld x0 r0_9)⟩,
      ⟨r0_7, slabAvg (View.ld x0 r0_5) (View.ld x0 r0_6)⟩,
      ⟨r0_4, slabAvg (View.ld x0 r0_2) (View.ld x0 r0_3)⟩,
      ⟨r0_1, slabAvg (View.ld x0 r0_0) (View.ld x0 r0_0)⟩] := rfl

/-- THE OUTPUT BLOCK after the body is the pooled block of the input block. -/
theorem out_eq (x0 : Vec Ideal S8x31x64x128 .f32) : out0_1 x0 = Cert.Pool.pooled x0 := by
  funext y
  rw [out_pieces]
  refine View.canon_apply_of_pieces (Val := Elt Ideal) (S := S8x16x64x128) (e := .f32) (Cert.Pool.pooled x0) _ ?_ y
    (cover0_1 (F := Ideal) _ _ _ _ _ _ _ _ _ _ _ _ _ _ _ _ y)
  intro pc hpc x
  simp only [List.mem_cons, List.not_mem_nil, or_false] at hpc
  rcases hpc with rfl | rfl | rfl | rfl | rfl | rfl | rfl | rfl | rfl | rfl | rfl | rfl | rfl | rfl | rfl | rfl
  · exact piece_eq x0 15 inb_S8x16x64x128_S8x1x64x128_0_15_0_0 inb_S8x31x64x128_S8x1x64x128_0_29_0_0 inb_S8x31x64x128_S8x1x64x128_0_30_0_0 x
  · exact piece_eq x0 14 inb_S8x16x64x128_S8x1x64x128_0_14_0_0 inb_S8x31x64x128_S8x1x64x128_0_27_0_0 inb_S8x31x64x128_S8x1x64x128_0_28_0_0 x
  · exact piece_eq x0 13 inb_S8x16x64x128_S8x1x64x128_0_13_0_0 inb_S8x31x64x128_S8x1x64x128_0_25_0_0 inb_S8x31x64x128_S8x1x64x128_0_26_0_0 x
  · exact piece_eq x0 12 inb_S8x16x64x128_S8x1x64x128_0_12_0_0 inb_S8x31x64x128_S8x1x64x128_0_23_0_0 inb_S8x31x64x128_S8x1x64x128_0_24_0_0 x
  · exact piece_eq x0 11 inb_S8x16x64x128_S8x1x64x128_0_11_0_0 inb_S8x31x64x128_S8x1x64x128_0_21_0_0 inb_S8x31x64x128_S8x1x64x128_0_22_0_0 x
  · exact piece_eq x0 10 inb_S8x16x64x128_S8x1x64x128_0_10_0_0 inb_S8x31x64x128_S8x1x64x128_0_19_0_0 inb_S8x31x64x128_S8x1x64x128_0_20_0_0 x
  · exact piece_eq x0 9 inb_S8x16x64x128_S8x1x64x128_0_9_0_0 inb_S8x31x64x128_S8x1x64x128_0_17_0_0 inb_S8x31x64x128_S8x1x64x128_0_18_0_0 x
  · exact piece_eq x0 8 inb_S8x16x64x128_S8x1x64x128_0_8_0_0 inb_S8x31x64x128_S8x1x64x128_0_15_0_0 inb_S8x31x64x128_S8x1x64x128_0_16_0_0 x
  · exact piece_eq x0 7 inb_S8x16x64x128_S8x1x64x128_0_7_0_0 inb_S8x31x64x128_S8x1x64x128_0_13_0_0 inb_S8x31x64x128_S8x1x64x128_0_14_0_0 x
  · exact piece_eq x0 6 inb_S8x16x64x128_S8x1x64x128_0_6_0_0 inb_S8x31x64x128_S8x1x64x128_0_11_0_0 inb_S8x31x64x128_S8x1x64x128_0_12_0_0 x
  · exact piece_eq x0 5 inb_S8x16x64x128_S8x1x64x128_0_5_0_0 inb_S8x31x64x128_S8x1x64x128_0_9_0_0 inb_S8x31x64x128_S8x1x64x128_0_10_0_0 x
  · exact piece_eq x0 4 inb_S8x16x64x128_S8x1x64x128_0_4_0_0 inb_S8x31x64x128_S8x1x64x128_0_7_0_0 inb_S8x31x64x128_S8x1x64x128_0_8_0_0 x
  · exact piece_eq x0 3 inb_S8x16x64x128_S8x1x64x128_0_3_0_0 inb_S8x31x64x128_S8x1x64x128_0_5_0_0 inb_S8x31x64x128_S8x1x64x128_0_6_0_0 x
  · exact piece_eq x0 2 inb_S8x16x64x128_S8x1x64x128_0_2_0_0 inb_S8x31x64x128_S8x1x64x128_0_3_0_0 inb_S8x31x64x128_S8x1x64x128_0_4_0_0 x
  · exact piece_eq x0 1 inb_S8x16x64x128_S8x1x64x128_0_1_0_0 inb_S8x31x64x128_S8x1x64x128_0_1_0_0 inb_S8x31x64x128_S8x1x64x128_0_2_0_0 x
  · exact piece_eq x0 0 inb_S8x16x64x128_S8x1x64x128_0_0_0_0 inb_S8x31x64x128_S8x1x64x128_0_0_0_0 inb_S8x31x64x128_S8x1x64x128_0_0_0_0 x

end Cert.KernelIdeal.Pooling

end
-- ==== Proof.KernelValue.lean ====
/-
  From blocks to the whole array.

  The grid has 4 × 32 points.  At point t the input window's block is batches 8·(t / 32) … +7 and frames
  128·(t % 32) … +127 of the table, all joints and channels; the output window's block is the same batches and
  frames of the result, all sixteen pooled joints and all channels.  Both index maps are decided once over the
  128 points.

  Pooling acts on the joint axis alone and the blocks are whole along it, so the pooled block of the table's
  block at t is the block at t of the pooled table: an element (q, p, c, l) of the output block reads the table's
  block at (q, first p, c, l) and (q, second p, c, l), which are the table at the block's batch and frame offsets
  plus (q, ·, c, l) — exactly what the pooled table reads at the output block's element.  Every point writes its
  block back, the 128 output blocks tile the result (the point that covers batch b and frame f is the one with
  block index (b / 8, 0, 0, f / 128)), and so the result array ends as the pooled table of the argument.
-/
import proofs.«149414_j17798344475160_1_alg».proof.Proof.Gen.KernelIdeal.Value
import proofs.«149414_j17798344475160_1_alg».proof.Proof.KernelBlock

set_option maxRecDepth 16384

noncomputable section

namespace Cert.KernelIdeal.Pooling

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps, decided over the grid: the two windows share their batch and frame block indices, sit
    at zero along joints and channels, and the output's batch and frame block indices stay in range. -/
theorem index_facts : ∀ t : Fin cfg0.N,
    win0_0.index t (0 : Fin 4) = win0_1.index t (0 : Fin 4) ∧ win0_0.index t (1 : Fin 4) = 0
    ∧ win0_0.index t (2 : Fin 4) = 0 ∧ win0_0.index t (3 : Fin 4) = win0_1.index t (3 : Fin 4)
    ∧ win0_1.index t (1 : Fin 4) = 0 ∧ win0_1.index t (2 : Fin 4) = 0
    ∧ win0_1.index t (0 : Fin 4) ≤ 3 ∧ win0_1.index t (3 : Fin 4) ≤ 31 :=
  (by decide +kernel : ∀ t : Fin grid0.N, _)

/-- Every (batch tile, frame tile) is some point's output block index. -/
theorem index_onto : ∀ (q0 : Fin 4) (q3 : Fin 32), ∃ t : Fin cfg0.N, win0_1.index t = ![q0.val, 0, 0, q3.val] :=
  (by decide +kernel : ∀ (q0 : Fin 4) (q3 : Fin 32), ∃ t : Fin grid0.N, win0_1.index t = ![q0.val, 0, 0, q3.val])

/-- THE INPUT BLOCK at point `t`, read at `y`, is the table at the block's batch and frame offsets plus `y`. -/
theorem iblk_apply (c : Dev nD) (t : Fin cfg0.N) (y : S8x31x64x128.Idx) (k : S32x31x64x4096.Idx)
    (h0 : (k 0).val = win0_0.index t (0 : Fin 4) * 8 + (y 0).val) (h1 : (k 1).val = (y 1).val)
    (h2 : (k 2).val = (y 2).val) (h3 : (k 3).val = win0_0.index t (3 : Fin 4) * 128 + (y 3).val) :
    (iblk m c 0 t : Vec Ideal S8x31x64x128 .f32) y = (V m c main_arg0 : S32x31x64x4096.Idx → Elt Ideal .f32) k := by
  obtain ⟨-, e1, e2, -, -, -, -, -⟩ := index_facts t
  unfold iblk
  rw [View.read_apply]
  show V m c main_arg0 _ = V m c main_arg0 _
  congr 1
  funext a
  apply Fin.ext
  match a with
  | ⟨0, _⟩ => show win0_0.index t (0 : Fin 4) * 8 + 1 * (y 0).val = (k 0).val; omega
  | ⟨1, _⟩ => show win0_0.index t (1 : Fin 4) * 31 + 1 * (y 1).val = (k 1).val; omega
  | ⟨2, _⟩ => show win0_0.index t (2 : Fin 4) * 64 + 1 * (y 2).val = (k 2).val; omega
  | ⟨3, _⟩ => show win0_0.index t (3 : Fin 4) * 128 + 1 * (y 3).val = (k 3).val; omega

/-- WHAT POINT `t` WRITES BACK is block `t` of the pooled table of the argument array. -/
theorem flushed_eq (c : Dev nD) (t : Fin cfg0.N) :
    (dats m 0 c).flushed 1 t
      = ((cfg0.win 1).blk t).view.read (Elt Ideal) (Cert.Pool.pooled (V m c main_arg0 : FVec Ideal S32x31x64x4096 .f32)) := by
  show (cfg0.win 1).cut (grid0.coords t) ((dats m 0 c).after 1 t) = _
  rw [after0_1, out_eq]
  obtain ⟨e0, e1, e2, e3, e4, e5, e6, e7⟩ := index_facts t
  show (Cert.Pool.pooled (iblk m c 0 t : Vec Ideal S8x31x64x128 .f32) : S8x16x64x128.Idx → Elt Ideal .f32)
    = fun j : S8x16x64x128.Idx =>
        Cert.Pool.pooled (V m c main_arg0 : FVec Ideal S32x31x64x4096 .f32) (((cfg0.win 1).blk t).view.emb j)
  funext j
  obtain ⟨q, p, ch, l, rfl⟩ : ∃ (q : Fin 8) (p : Fin 16) (ch : Fin 64) (l : Fin 128), j = ix4 q p ch l :=
    ⟨j 0, j 1, j 2, j 3, eq_ix4 j⟩
  have hq : q.val < 8 := q.isLt
  have hl : l.val < 128 := l.isLt
  have hp : p.val < 16 := p.isLt
  -- the output block's element (q, p, ch, l) as an index of the result array
  have hb : win0_1.index t (0 : Fin 4) * 8 + 1 * q.val < 32 := by omega
  have hf : win0_1.index t (3 : Fin 4) * 128 + 1 * l.val < 4096 := by omega
  have ei : ((cfg0.win 1).blk t).view.emb (ix4 q p ch l)
      = ix4 (⟨win0_1.index t (0 : Fin 4) * 8 + 1 * q.val, hb⟩ : Fin 32) p ch
          (⟨win0_1.index t (3 : Fin 4) * 128 + 1 * l.val, hf⟩ : Fin 4096) := by
    funext a
    apply Fin.ext
    match a with
    | ⟨0, _⟩ => rfl
    | ⟨1, _⟩ => show win0_1.index t (1 : Fin 4) * 16 + 1 * p.val = p.val; omega
    | ⟨2, _⟩ => show win0_1.index t (2 : Fin 4) * 64 + 1 * ch.val = ch.val; omega
    | ⟨3, _⟩ => rfl
  rw [ei, Cert.Pool.pooled_ix4, Cert.Pool.pooled_ix4]
  rw [iblk_apply m c t (ix4 q (Cert.Pool.first p) ch l)
      (ix4 (⟨win0_1.index t (0 : Fin 4) * 8 + 1 * q.val, hb⟩ : Fin 32) (Cert.Pool.first p) ch
        (⟨win0_1.index t (3 : Fin 4) * 128 + 1 * l.val, hf⟩ : Fin 4096))
      (by show win0_1.index t (0 : Fin 4) * 8 + 1 * q.val = win0_0.index t (0 : Fin 4) * 8 + q.val; omega) rfl rfl
      (by show win0_1.index t (3 : Fin 4) * 128 + 1 * l.val = win0_0.index t (3 : Fin 4) * 128 + l.val; omega),
    iblk_apply m c t (ix4 q (Cert.Pool.second p) ch l)
      (ix4 (⟨win0_1.index t (0 : Fin 4) * 8 + 1 * q.val, hb⟩ : Fin 32) (Cert.Pool.second p) ch
        (⟨win0_1.index t (3 : Fin 4) * 128 + 1 * l.val, hf⟩ : Fin 4096))
      (by show win0_1.index t (0 : Fin 4) * 8 + 1 * q.val = win0_0.index t (0 : Fin 4) * 8 + q.val; omega) rfl rfl
      (by show win0_1.index t (3 : Fin 4) * 128 + 1 * l.val = win0_0.index t (3 : Fin 4) * 128 + l.val; omega)]

/-- An index of the result array is in point `t`'s block iff each coordinate is in the block's range on its axis. -/
theorem mem_blk (t : Fin cfg0.N) (i : S32x16x64x4096.Idx) :
    i ∈ ((cfg0.win 1).blk t).view.set
      ↔ ∀ a : Fin 4, win0_1.index t a * S8x16x64x128.size a ≤ (i a).val
          ∧ (i a).val < win0_1.index t a * S8x16x64x128.size a + S8x16x64x128.size a := by
  show i ∈ ((View.whole main_v0).slice (win0_1.rect t)).set ↔ _
  rw [View.set_slice_whole, Rect.mem_set_unit]
  exact Iff.rfl

/-- Every index of the result array is in some point's block: the point whose block index is the index's batch
    tile and frame tile. -/
theorem covered (i : S32x16x64x4096.Idx) :
    ∃ t : Fin cfg0.N, (cfg0.win 1).flush t = true ∧ i ∈ ((cfg0.win 1).blk t).view.set := by
  have hi0 : (i 0).val < 32 := (i 0).isLt
  have hi1 : (i 1).val < 16 := (i 1).isLt
  have hi2 : (i 2).val < 64 := (i 2).isLt
  have hi3 : (i 3).val < 4096 := (i 3).isLt
  obtain ⟨t, ht⟩ := index_onto ⟨(i 0).val / 8, by omega⟩ ⟨(i 3).val / 128, by omega⟩
  have q0 : win0_1.index t (0 : Fin 4) = (i 0).val / 8 := congrFun ht 0
  have q1 : win0_1.index t (1 : Fin 4) = 0 := congrFun ht 1
  have q2 : win0_1.index t (2 : Fin 4) = 0 := congrFun ht 2
  have q3 : win0_1.index t (3 : Fin 4) = (i 3).val / 128 := congrFun ht 3
  refine ⟨t, flush0_1 t, ?_⟩
  rw [mem_blk]
  intro a
  match a with
  | ⟨0, _⟩ => show win0_1.index t (0 : Fin 4) * 8 ≤ (i 0).val ∧ (i 0).val < win0_1.index t (0 : Fin 4) * 8 + 8; omega
  | ⟨1, _⟩ => show win0_1.index t (1 : Fin 4) * 16 ≤ (i 1).val ∧ (i 1).val < win0_1.index t (1 : Fin 4) * 16 + 16; omega
  | ⟨2, _⟩ => show win0_1.index t (2 : Fin 4) * 64 ≤ (i 2).val ∧ (i 2).val < win0_1.index t (2 : Fin 4) * 64 + 64; omega
  | ⟨3, _⟩ => show win0_1.index t (3 : Fin 4) * 128 ≤ (i 3).val ∧ (i 3).val < win0_1.index t (3 : Fin 4) * 128 + 128; omega

/-- THE RESULT ARRAY after the run is the pooled table of the argument array. -/
theorem final (c : Dev nD) :
    (dats m 0 c).arrAt 1 cfg0.N = Cert.Pool.pooled (m ((c : Thread nD τ).loc main_arg0) : FVec Ideal S32x31x64x4096 .f32) :=
  (dats m 0 c).arrAt_eq_of_cover 1 (Cert.Pool.pooled (V m c main_arg0 : FVec Ideal S32x31x64x4096 .f32))
    (fun t _ => flushed_eq m c t) covered

/-- The kernel's run, read: the result array at the pooled table of the argument, the argument unchanged. -/
theorem run : θ_run defs (onTc (τ := τ) (main (F := Ideal))) ⟨m, fun _ => 0, ρ⟩ fun r => ∀ c : Dev nD,
      r.2.mem ((c : Thread nD τ).loc main_v0)
          = Cert.Pool.pooled (m ((c : Thread nD τ).loc main_arg0) : FVec Ideal S32x31x64x4096 .f32)
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Pooling

end
-- ==== Proof.RefRun.lean ====
/-
  The reference program read as a list of host operations, and its run.

  The reference computes, for every batch b, pooled joint p, channel c and frame t,
      out[b, p, c, t] = (x[b, first p, c, t] + x[b, second p, c, t]) * 0.5
  by two row gathers along the joint axis (axis 1 of the table), one float addition and one product with the
  splat of one half.  Each gather's start indices are a table of sixteen literal words that the program passes
  through a wrap-around select whose mask is constantly false (the "negative index" fix-up of an indexing
  expression), and recasts as a column [16, 1].

  Here the twenty operations of the program's entry function are listed in order, the entry function is that
  list run in sequence (by unfolding), and so every weakly fair execution terminates with the result buffer at
  the operations' composed term of the argument array and the argument array unchanged.
-/
import proofs.«149414_j17798344475160_1_alg».proof.Proof.Gen.ReferenceIdeal
import Idealize.ShloMosaic.Lib.StableHlo.Run

noncomputable section

namespace Cert.ReferenceIdeal.Pooling

open Cert.ReferenceIdeal Cert.ReferenceIdeal.Gen Idealize.ShloMosaic Idealize.ShloMosaic.TcCoe Idealize.SL.Sem Idealize.ShloMosaic.StableHlo

variable {F : FTy → Type} [FloatOps F]

/-- The first gather's start indices as the program computes them: the literal table of first source joints,
    through the select on a constantly false mask, as a column. -/
def firstStarts : (⟨S16x1, .i32⟩ : BufTy).Contents (Elt F) :=
  broadcastInDim S16x1 ![0] bcast_S16_S16x1_0
    (select (constantI S16 1 0#1)
      (addi (fun i => lit0 (S16.rowMajor i)) (broadcastInDim S16 ![] bcast_S_S16 (constantI S_ 32 31#32)))
      (fun i => lit0 (S16.rowMajor i)) : (⟨S16, .i32⟩ : BufTy).Contents (Elt F))

/-- The second gather's start indices, likewise from the table of second source joints. -/
def secondStarts : (⟨S16x1, .i32⟩ : BufTy).Contents (Elt F) :=
  broadcastInDim S16x1 ![0] bcast_S16_S16x1_0
    (select (constantI S16 1 0#1)
      (addi (fun i => lit1 (S16.rowMajor i)) (broadcastInDim S16 ![] bcast_S_S16 (constantI S_ 32 31#32)))
      (fun i => lit1 (S16.rowMajor i)) : (⟨S16, .i32⟩ : BufTy).Contents (Elt F))

/-- What the reference leaves in its result buffer, as a function of the argument array: the sum of the two
    gathers times the splat of one half. -/
def result (x : (⟨S32x31x64x4096, .f32⟩ : BufTy).Contents (Elt F)) : (⟨S32x16x64x4096, .f32⟩ : BufTy).Contents (Elt F) :=
  mulf
    (addf
      (Host.gather gather_S32x31x64x4096_S16x1_S32x16x64x4096_023_1_n_n_1_1_321644096 x (firstStarts (F := F)))
      (Host.gather gather_S32x31x64x4096_S16x1_S32x16x64x4096_023_1_n_n_1_1_321644096 x (secondStarts (F := F))))
    (broadcastInDim S32x16x64x4096 ![] bcast_S_S32x16x64x4096 (constant S_ .f32 0x3F000000#32))

/-- The entry function's twenty operations, in order. -/
abbrev ops : List (HloOp τ sig (Elt F)) :=
  [ nullary main_c (fun i => lit0 (S16.rowMajor i)),
    nullary main_c_0 (constantI S16 1 0#1),
    nullary main_c_1 (fun i => lit1 (S16.rowMajor i)),
    nullary main_c_2 (constantI S16 1 0#1),
    nullary main_c_3 (constantI S_ 32 31#32),
    unary main_c_3 main_v0 (broadcastInDim S16 ![] bcast_S_S16 : (⟨S_, .i32⟩ : BufTy).Contents (Elt F) → (⟨S16, .i32⟩ : BufTy).Contents (Elt F)),
    binary main_c main_v0 main_v1 (addi : (⟨S16, .i32⟩ : BufTy).Contents (Elt F) → (⟨S16, .i32⟩ : BufTy).Contents (Elt F) → (⟨S16, .i32⟩ : BufTy).Contents (Elt F)),
    ternary main_c_0 main_v1 main_c main_v2 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v2 main_v3 (broadcastInDim S16x1 ![0] bcast_S16_S16x1_0 : (⟨S16, .i32⟩ : BufTy).Contents (Elt F) → (⟨S16x1, .i32⟩ : BufTy).Contents (Elt F)),
    binary main_arg0 main_v3 main_v4 ((fun x i => Host.gather gather_S32x31x64x4096_S16x1_S32x16x64x4096_023_1_n_n_1_1_321644096 x i) : (⟨S32x31x64x4096, .f32⟩ : BufTy).Contents (Elt F) → (⟨S16x1, .i32⟩ : BufTy).Contents (Elt F) → (⟨S32x16x64x4096, .f32⟩ : BufTy).Contents (Elt F)),
    nullary main_c_4 (constantI S_ 32 31#32),
    unary main_c_4 main_v5 (broadcastInDim S16 ![] bcast_S_S16 : (⟨S_, .i32⟩ : BufTy).Contents (Elt F) → (⟨S16, .i32⟩ : BufTy).Contents (Elt F)),
    binary main_c_1 main_v5 main_v6 (addi : (⟨S16, .i32⟩ : BufTy).Contents (Elt F) → (⟨S16, .i32⟩ : BufTy).Contents (Elt F) → (⟨S16, .i32⟩ : BufTy).Contents (Elt F)),
    ternary main_c_2 main_v6 main_c_1 main_v7 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v7 main_v8 (broadcastInDim S16x1 ![0] bcast_S16_S16x1_0 : (⟨S16, .i32⟩ : BufTy).Contents (Elt F) → (⟨S16x1, .i32⟩ : BufTy).Contents (Elt F)),
    binary main_arg0 main_v8 main_v9 ((fun x i => Host.gather gather_S32x31x64x4096_S16x1_S32x16x64x4096_023_1_n_n_1_1_321644096 x i) : (⟨S32x31x64x4096, .f32⟩ : BufTy).Contents (Elt F) → (⟨S16x1, .i32⟩ : BufTy).Contents (Elt F) → (⟨S32x16x64x4096, .f32⟩ : BufTy).Contents (Elt F)),
    binary main_v4 main_v9 main_v10 (addf : (⟨S32x16x64x4096, .f32⟩ : BufTy).Contents (Elt F) → (⟨S32x16x64x4096, .f32⟩ : BufTy).Contents (Elt F) → (⟨S32x16x64x4096, .f32⟩ : BufTy).Contents (Elt F)),
    nullary main_cst (constant S_ .f32 0x3F000000#32),
    unary main_cst main_v11 (broadcastInDim S32x16x64x4096 ![] bcast_S_S32x16x64x4096 : (⟨S_, .f32⟩ : BufTy).Contents (Elt F) → (⟨S32x16x64x4096, .f32⟩ : BufTy).Contents (Elt F)),
    binary main_v10 main_v11 main_v12 (mulf : (⟨S32x16x64x4096, .f32⟩ : BufTy).Contents (Elt F) → (⟨S32x16x64x4096, .f32⟩ : BufTy).Contents (Elt F) → (⟨S32x16x64x4096, .f32⟩ : BufTy).Contents (Elt F)) ]

/-- The entry function is its operations run in sequence. -/
theorem main_eq (c : Dev nD) : main (F := F) c = seq ops := rfl

/-- The signature scopes no buffer and no semaphore (the program launches no kernel). -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub ..,
   unary_bufs_sub .., binary_bufs_sub .., ternary_bufs_sub .., unary_bufs_sub .., binary_bufs_sub ..,
   nullary_bufs_sub .., unary_bufs_sub .., binary_bufs_sub .., ternary_bufs_sub .., unary_bufs_sub .., binary_bufs_sub ..,
   binary_bufs_sub .., nullary_bufs_sub .., unary_bufs_sub .., binary_bufs_sub ..⟩

/-- On every device, from any memory with zero counters: every weakly fair execution of the reference terminates
    with its result buffer at `result` of the argument array, and the argument array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = result (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v12).trans (by after_results; rfl),
      (h c main_arg0).trans (by after_results)⟩)
    (run_seq scopedRefs_eq scopedSems_eq defs main (fun _ => ops) main_eq (fun _ => ops_sub) m ρ)

end Cert.ReferenceIdeal.Pooling

end
-- ==== Proof.LibAxisGather.lean ====
/-
  A `stablehlo.gather` of whole slices along axis 1 of a rank-4 table, read at an index.

  What `x[:, idx]` of a table `x : [B, N, C, T]` at an integer vector `idx : [R]` lowers to: a gather with
  offset_dims `[0, 2, 3]`, collapsed_slice_dims `[1]`, start_index_map `[1]`, index_vector_dim 1 and
  slice_sizes `[B, 1, C, T]` over the start indices recast as a column `[R, 1]`.  The result element at
  `(b, p, c, t)` is the table at `(b, n, c, t)`, where `n` is the `p`-th start index read as a signed integer and
  clamped into `[0, N − 1]` (StableHLO clamps every start index so that the slice fits); the other three
  coordinates pass through unchanged, for entries of any type and start indices of any width.

  The operand index of a gather is, per operand axis, the clamped start plus the batching coordinate plus the
  offset coordinate.  Here there is no batching axis; axis 1 is collapsed, so it has a start and no offset; the
  axes 0, 2 and 3 are not in the start index map, so their start is zero and their offset is the result's own
  coordinate on the matching offset axis.
-/
import Idealize.ShloMosaic.Lib.ValueIdx

noncomputable section

namespace Idealize.ShloMosaic.AxisGather

open Idealize.ShloMosaic Idealize.ShloMosaic.ValueIdx

variable {α : Type}

/-- Those dimension numbers for a table `[B, N, C, T]`, start indices `[R, 1]` and a result `[B, R, C, T]`; the
    conditions `wf` are decided on a program's literal shapes. -/
abbrev axis1Dims (B N C T R : Nat)
    (wf : GatherDims.WF ⟨4, ![B, N, C, T]⟩ ⟨2, ![R, 1]⟩ ⟨4, ![B, R, C, T]⟩ [0, 2, 3] [1] [] [1] [] 1 ![B, 1, C, T]) :
    GatherDims ⟨4, ![B, N, C, T]⟩ ⟨2, ![R, 1]⟩ ⟨4, ![B, R, C, T]⟩ where
  offsetDims := [0, 2, 3]
  collapsedSliceDims := [1]
  operandBatchingDims := []
  startIndicesBatchingDims := []
  startIndexMap := [1]
  indexVectorDim := 1
  sliceSizes := ![B, 1, C, T]
  wf := wf

/-- THE GATHER READ AT `(b, p, c, t)`: the table at `(b, n, c, t)` with `n` the start index `idx[p, 0]` read signed
    and clamped into `[0, N − 1]`. -/
theorem gather_axis1_apply {B N C T R w : Nat} (hN : 0 < N)
    (wf : GatherDims.WF ⟨4, ![B, N, C, T]⟩ ⟨2, ![R, 1]⟩ ⟨4, ![B, R, C, T]⟩ [0, 2, 3] [1] [] [1] [] 1 ![B, 1, C, T])
    (x : (⟨4, ![B, N, C, T]⟩ : Shape).Idx → α) (idx : IVec ⟨2, ![R, 1]⟩ w)
    (b : Fin B) (p : Fin R) (c : Fin C) (t : Fin T) :
    Host.gather (axis1Dims B N C T R wf) x idx (ix4 b p c t)
      = x (ix4 b ⟨min (idx (ix2 p ⟨0, Nat.one_pos⟩)).toInt.toNat (N - 1), by omega⟩ c t) := by
  unfold Host.gather
  congr 1
  funext a
  refine Fin.ext ?_
  match a with
  | ⟨0, _⟩ =>
    -- not in the start index map, no batching, the first offset axis
    show (axis1Dims B N C T R wf).start (ix4 b p c t) idx 0 + (axis1Dims B N C T R wf).batchCoord (ix4 b p c t) 0
      + (axis1Dims B N C T R wf).offCoord (ix4 b p c t) 0 = b.val
    have h1 : (axis1Dims B N C T R wf).start (ix4 b p c t) idx 0 = 0 := rfl
    have h2 : (axis1Dims B N C T R wf).batchCoord (ix4 b p c t) 0 = 0 := rfl
    have h3 : (axis1Dims B N C T R wf).offCoord (ix4 b p c t) 0 = b.val := rfl
    omega
  | ⟨1, _⟩ =>
    -- the collapsed axis: the clamped start index alone
    show (axis1Dims B N C T R wf).start (ix4 b p c t) idx 1 + (axis1Dims B N C T R wf).batchCoord (ix4 b p c t) 1
      + (axis1Dims B N C T R wf).offCoord (ix4 b p c t) 1 = min (idx (ix2 p ⟨0, Nat.one_pos⟩)).toInt.toNat (N - 1)
    have h2 : (axis1Dims B N C T R wf).batchCoord (ix4 b p c t) 1 = 0 := rfl
    have h3 : (axis1Dims B N C T R wf).offCoord (ix4 b p c t) 1 = 0 := rfl
    have hsi : (axis1Dims B N C T R wf).siIdx (ix4 b p c t) ⟨0, Nat.one_pos⟩ = ix2 p ⟨0, Nat.one_pos⟩ := by
      funext e; refine Fin.ext ?_
      match e with
      | ⟨0, _⟩ => rfl
      | ⟨1, _⟩ => rfl
    have h1 : (axis1Dims B N C T R wf).start (ix4 b p c t) idx 1
        = min (idx ((axis1Dims B N C T R wf).siIdx (ix4 b p c t) ⟨0, Nat.one_pos⟩)).toInt.toNat (N - 1) := rfl
    rw [h1, h2, h3, hsi]
    omega
  | ⟨2, _⟩ =>
    show (axis1Dims B N C T R wf).start (ix4 b p c t) idx 2 + (axis1Dims B N C T R wf).batchCoord (ix4 b p c t) 2
      + (axis1Dims B N C T R wf).offCoord (ix4 b p c t) 2 = c.val
    have h1 : (axis1Dims B N C T R wf).start (ix4 b p c t) idx 2 = 0 := rfl
    have h2 : (axis1Dims B N C T R wf).batchCoord (ix4 b p c t) 2 = 0 := rfl
    have h3 : (axis1Dims B N C T R wf).offCoord (ix4 b p c t) 2 = c.val := rfl
    omega
  | ⟨3, _⟩ =>
    show (axis1Dims B N C T R wf).start (ix4 b p c t) idx 3 + (axis1Dims B N C T R wf).batchCoord (ix4 b p c t) 3
      + (axis1Dims B N C T R wf).offCoord (ix4 b p c t) 3 = t.val
    have h1 : (axis1Dims B N C T R wf).start (ix4 b p c t) idx 3 = 0 := rfl
    have h2 : (axis1Dims B N C T R wf).batchCoord (ix4 b p c t) 3 = 0 := rfl
    have h3 : (axis1Dims B N C T R wf).offCoord (ix4 b p c t) 3 = t.val := rfl
    omega

end Idealize.ShloMosaic.AxisGather

end
-- ==== Proof.RefValue.lean ====
/-
  The reference's result is the pooled table.

  Each of the reference's two gathers takes whole (batch, channel, frame) slices of the table along the joint
  axis; read at (b, p, c, t) it is the table at (b, n, c, t) with n the p-th start index, read signed and clamped
  into [0, 30].  The start indices are the program's two literal tables passed through a select whose mask is
  constantly false, so they are the tables themselves: 0, 1, 3, …, 29 and 0, 2, 4, …, 30 — in range, so the clamp
  does nothing, and equal to `first p` and `second p` for each of the sixteen pooled joints (checked joint by
  joint).  The sum of the two gathers times the splat of one half is then the pooled table, index by index.
-/
import proofs.«149414_j17798344475160_1_alg».proof.Proof.RefRun
import proofs.«149414_j17798344475160_1_alg».proof.Proof.LibAxisGather
import proofs.«149414_j17798344475160_1_alg».proof.Proof.PoolSpec

noncomputable section

namespace Cert.ReferenceIdeal.Pooling

open Cert.ReferenceIdeal Cert.ReferenceIdeal.Gen Idealize.ShloMosaic Idealize.ShloMosaic.ValueIdx
open Idealize.ShloMosaic.AxisGather

/-- The program's gather record is the general axis-1 gather at the program's literal extents. -/
theorem dims_eq :
    gather_S32x31x64x4096_S16x1_S32x16x64x4096_023_1_n_n_1_1_321644096
      = axis1Dims 32 31 64 4096 16 gather_S32x31x64x4096_S16x1_S32x16x64x4096_023_1_n_n_1_1_321644096_wf := rfl

/-- The first gather's p-th start index, read signed and clamped into [0, 30], is the first joint of pooled joint p. -/
theorem first_read : ∀ p : Fin 16,
    min ((firstStarts (F := Ideal) : IVec ⟨2, ![16, 1]⟩ 32) (ix2 p ⟨0, Nat.one_pos⟩)).toInt.toNat (31 - 1) = (Cert.Pool.first p).val := by
  decide

/-- The second gather's p-th start index, likewise, is the second joint of pooled joint p. -/
theorem second_read : ∀ p : Fin 16,
    min ((secondStarts (F := Ideal) : IVec ⟨2, ![16, 1]⟩ 32) (ix2 p ⟨0, Nat.one_pos⟩)).toInt.toNat (31 - 1) = (Cert.Pool.second p).val := by
  decide

/-- THE REFERENCE'S RESULT is the pooled table of its argument. -/
theorem result_eq (x : FVec Ideal S32x31x64x4096 .f32) : result (F := Ideal) x = Cert.Pool.pooled x := by
  funext i
  obtain ⟨b, p, c, t, rfl⟩ : ∃ (b : Fin 32) (p : Fin 16) (c : Fin 64) (t : Fin 4096), i = ix4 b p c t :=
    ⟨i 0, i 1, i 2, i 3, eq_ix4 i⟩
  rw [Cert.Pool.pooled_ix4]
  show (Host.gather gather_S32x31x64x4096_S16x1_S32x16x64x4096_023_1_n_n_1_1_321644096 x (firstStarts (F := Ideal)) (ix4 b p c t)
      + Host.gather gather_S32x31x64x4096_S16x1_S32x16x64x4096_023_1_n_n_1_1_321644096 x (secondStarts (F := Ideal)) (ix4 b p c t))
      * Cert.Pool.half = _
  rw [dims_eq,
    gather_axis1_apply (by decide) _ x (firstStarts (F := Ideal)) b p c t,
    gather_axis1_apply (by decide) _ x (secondStarts (F := Ideal)) b p c t]
  have e1 : (⟨min ((firstStarts (F := Ideal) : IVec ⟨2, ![16, 1]⟩ 32) (ix2 p ⟨0, Nat.one_pos⟩)).toInt.toNat (31 - 1), by omega⟩ : Fin 31)
      = Cert.Pool.first p := Fin.ext (first_read p)
  have e2 : (⟨min ((secondStarts (F := Ideal) : IVec ⟨2, ![16, 1]⟩ 32) (ix2 p ⟨0, Nat.one_pos⟩)).toInt.toNat (31 - 1), by omega⟩ : Fin 31)
      = Cert.Pool.second p := Fin.ext (second_read p)
  rw [e1, e2]

end Cert.ReferenceIdeal.Pooling

end
-- ==== Proof.lean ====
/-
  Skeletal pooling: the kernel against its reference, over the extended reals.

  Both programs compute, for every batch b, pooled joint p, channel c and frame t,
      out[b, p, c, t] = (x[b, first p, c, t] + x[b, second p, c, t]) · ½ ,
  with the same binary32 word for one half; pooled joint 0 reads the root joint twice and pooled joint p ≥ 1 reads
  joints 2p − 1 and 2p.  The kernel tiles batches by 8 and frames by 128 and, at each of its 4 × 32 grid points,
  fills its output block by sixteen slab stores; the reference gathers the two joint selections along the joint
  axis, adds them and multiplies by the splat of one half.

  The kernel's result array after its run is the pooled table of the argument (KernelBlock: the body's block;
  KernelValue: the blocks tile the array).  The reference's result buffer after its run is the same function of
  the argument (RefRun: its operations in order; RefValue: the two gathers read index by index through the general
  axis-1 gather lemma, the start-index tables checked joint by joint).  The two expressions are one expression, so
  no law of extended-real arithmetic and no finiteness of the inputs is needed: the precondition is never opened.

  The three frames: the kernel's and the idealized kernel's are the generated frame certificates; the reference
  launches no kernel, and its frame is its run with the value dropped.  The ideal pass rewrote no operation, so
  the idealized kernel is the kernel's own text read over the extended reals and `preserves` has nothing to state.
-/
import proofs.«149414_j17798344475160_1_alg».proof.Defs
import proofs.«149414_j17798344475160_1_alg».proof.Proof.Gen.Kernel
import proofs.«149414_j17798344475160_1_alg».proof.Proof.Gen.Kernel.Skeleton
import proofs.«149414_j17798344475160_1_alg».proof.Proof.Gen.Kernel.Launch
import proofs.«149414_j17798344475160_1_alg».proof.Proof.Gen.Kernel.Points
import proofs.«149414_j17798344475160_1_alg».proof.Proof.Gen.Kernel.Frame
import proofs.«149414_j17798344475160_1_alg».proof.Proof.Gen.KernelIdeal
import proofs.«149414_j17798344475160_1_alg».proof.Proof.Gen.KernelIdeal.Skeleton
import proofs.«149414_j17798344475160_1_alg».proof.Proof.Gen.KernelIdeal.Launch
import proofs.«149414_j17798344475160_1_alg».proof.Proof.Gen.KernelIdeal.Points
import proofs.«149414_j17798344475160_1_alg».proof.Proof.Gen.KernelIdeal.Frame
import proofs.«149414_j17798344475160_1_alg».proof.Proof.Gen.KernelIdeal.Value
import proofs.«149414_j17798344475160_1_alg».proof.Proof.Gen.ReferenceIdeal
import proofs.«149414_j17798344475160_1_alg».proof.Proof.Gen.Pre_finite_inputs
import proofs.«149414_j17798344475160_1_alg».proof.Proof.KernelValue
import proofs.«149414_j17798344475160_1_alg».proof.Proof.RefValue
import Idealize.ShloMosaic.Adequacy
import Idealize.ShloMosaic.Init

noncomputable section

namespace Cert.Proof

open Idealize.ShloMosaic Idealize.SL.Sem

/-- The word-level kernel runs, faults nowhere and leaves its argument as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the value of the result dropped. -/
theorem frame_reference : Cert.frame_ReferenceIdeal := fun m ρ _ =>
  (θ_run Cert.ReferenceIdeal.defs _ _).mono (fun _ h c => (h c).2) (Cert.ReferenceIdeal.Pooling.run (F := Ideal) m ρ)

/-- The ideal pass rewrote nothing: there is no conjunct to prove. -/
theorem preserves : Cert.preserves_Kernel_KernelIdeal := trivial

/-- From memories that agree on the argument, both programs end with the pooled table of that argument in their
    result arrays, and with the argument unchanged. -/
theorem algebraic : Cert.algebraic_KernelIdeal_ReferenceIdeal := by
  intro m ρ m' ρ' _ hagree
  refine ⟨fun c => Cert.Pool.pooled (m ((c.tc : Thread Cert.KernelIdeal.nD Cert.KernelIdeal.τ).loc Cert.KernelIdeal.main_arg0)
      : FVec Ideal Cert.KernelIdeal.S32x31x64x4096 .f32), Cert.KernelIdeal.Pooling.run m ρ, ?_⟩
  refine (θ_run Cert.ReferenceIdeal.defs _ _).mono (fun _ h c => ⟨(h c).1.trans ?_, (h c).2⟩)
    (Cert.ReferenceIdeal.Pooling.run (F := Ideal) m' ρ')
  rw [Cert.ReferenceIdeal.Pooling.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
